-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S64x128 : Shape := ⟨2, ![64, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S64x128 .f32) (main_arg3 : FVec F S1600000 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S64x128 : Shape := ⟨2, ![64, 128]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩
abbrev S5000x128 : Shape := ⟨2, ![5000, 128]⟩
abbrev S100000x64 : Shape := ⟨2, ![100000, 64]⟩
abbrev S5000x64 : Shape := ⟨2, ![5000, 64]⟩
abbrev S128x64 : Shape := ⟨2, ![128, 64]⟩

abbrev nBuf : Space → Nat
  | .hbm => 40
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S64x128, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S1600000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S64x128, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S64x128 : Shape := ⟨2, ![64, 128]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩
abbrev S128x64 : Shape := ⟨2, ![128, 64]⟩
abbrev S100000x64 : Shape := ⟨2, ![100000, 64]⟩

abbrev nBuf : Space → Nat
  | .hbm => 44
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S64x128, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S128x128, .f32⟩
  | .hbm, ⟨23, _⟩ => ⟨S100000x128, .f32⟩
  | .hbm, ⟨24, _⟩ => ⟨S100000x128, .f32⟩
  | .hbm, ⟨25, _⟩ => ⟨S1600000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S1600000x128, .f32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S128x64, .f32⟩
  | .hbm, ⟨42, _⟩ => ⟨S100000x64, .f32⟩
  | .hbm, ⟨43, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  transposes_S64x128_S128x64_1_0 : S64x128.Transposes [1, 0] S128x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RunFinal.lean ====
/-
  The idealized kernel's run, read at its end. @main is four stretches in a row: the host operations of the first
  sparse aggregation, the first layer's pallas_call, the host operations of the second aggregation, the second
  layer's pallas_call. The contents of the device's buffers at each of the five boundaries are a fold through
  those stretches from the launch memory: a host stretch applies its operations, a pallas_call replaces its
  output array by what its grid points wrote back and leaves every other buffer alone. The statement here is that
  every weakly fair execution terminates, without a fault, in a memory that holds at every buffer outliving the
  kernels exactly the last boundary's contents. What the result buffer holds, and that the arguments are
  unchanged, are both read off this one statement.
-/
import proofs.«117425_j72361609003220_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero semaphore counters, every weakly fair execution of @main on the TensorCore
    terminates, nothing faulting, and the final memory holds, at every buffer that is not a kernel's own staging
    space, the contents after the second pallas_call's write-backs. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Whole

end
-- ==== Proof.Spec.lean ====
/-
  The dense half of one graph-convolution layer, on the extended reals.

  Both programs compute, twice, a sparse aggregation followed by a bias-free linear map and a hyperbolic tangent:
  out = tanh (A · tanh (A · X · W1ᵀ) · W2ᵀ), with A the sparse matrix given by its edges. The sparse aggregation
  is the same chain of host operations in the two programs and is never opened. What is left is the dense map
  s ↦ tanh (s · Wᵀ): entry (r, j) of the result is tanh (∑ₖ s[r, k] · W[j, k]), the r-th row of the aggregated
  features against the j-th row of the weight matrix, over the 128 input features k. No reordering of the sum is
  involved, so nothing here needs the inputs to be finite.
-/
import Idealize.ShloMosaic.PureOps.Ideal
import Idealize.ShloMosaic.Lib.ValueIdx

noncomputable section

open scoped BigOperators

namespace Cert.GraphConv

open Idealize.ShloMosaic Idealize.ShloMosaic.ValueIdx

/-- Row `r`, column `j` of `tanh (s · Wᵀ)`: the hyperbolic tangent of the inner product of row `r` of `s` with
    row `j` of `W`, over the 128 input features. `n` is the number of rows of `s`, `d` the number of rows of `W`
    (the layer's output width). -/
def denseTanh (n d : Nat) (s : (⟨2, ![n, 128]⟩ : Shape).Idx → EReal) (W : (⟨2, ![d, 128]⟩ : Shape).Idx → EReal) :
    (⟨2, ![n, d]⟩ : Shape).Idx → EReal :=
  fun i => Ideal.tanh (∑ k : Fin 128, s (ix2 (n0 := n) (i 0) k) * W (ix2 (n0 := d) (i 1) k))

/-- The same, at an index. -/
theorem denseTanh_apply (n d : Nat) (s : (⟨2, ![n, 128]⟩ : Shape).Idx → EReal) (W : (⟨2, ![d, 128]⟩ : Shape).Idx → EReal)
    (i : (⟨2, ![n, d]⟩ : Shape).Idx) :
    denseTanh n d s W i = Ideal.tanh (∑ k : Fin 128, s (ix2 (n0 := n) (i 0) k) * W (ix2 (n0 := d) (i 1) k)) := rfl

end Cert.GraphConv

end
-- ==== Proof.Payload.lean ====
/-
  What each kernel body stores, as a function of the two blocks it loads: the dense layer of Spec.lean at the
  block's extents. The body casts both blocks to bf16 (the identity on the extended reals), transposes the weight
  block, multiplies into a zero accumulator (a plain sum over the 128 features, the accumulator contributing 0)
  and applies tanh. Read at row r and column j of the block this is tanh (∑ₖ x[r, k] · w[j, k]): the transposed
  weight block at (k, j) is the weight block at (j, k).
-/
import proofs.«117425_j72361609003220_1_alg».proof.Proof.Gen.KernelIdeal.Skeleton
import proofs.«117425_j72361609003220_1_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Dense

open Cert.KernelIdeal Cert.KernelIdeal.Gen Cert.GraphConv Idealize.ShloMosaic Idealize.ShloMosaic.ValueIdx

/-! ## Layer A: the body's matrix product read at an index -/

/-- The left operand's row is the output's row. -/
theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted feature. -/
theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted feature. -/
theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The first layer's body stores the dense layer of its feature block and the whole first weight matrix. -/
theorem payA_eq (x0 : Vec Ideal S5000x128 .f32) (x1 : Vec Ideal S128x128 .f32) :
    k0_pay1 (F := Ideal) x0 x1 = denseTanh 5000 128 x0 x1 := by
  funext j
  unfold k0_pay1
  rw [denseTanh_apply]
  refine congrArg Ideal.tanh ?_
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  refine congrArg₂ (fun a b : EReal => a * b) ?_ ?_
  · -- the cast to bf16 and the cast to the block's own shape change nothing: row (j 0), feature k of the block
    show shapeCast S5000x128 x0 shapeCasts_S5000x128_S5000x128 (dot_S5000x128_S128x128_S5000x128_1_0_0_1_n_n.lhsIdx j ((ValueIdx.contrEquiv1 dot_S5000x128_S128x128_S5000x128_1_0_0_1_n_n 128 rfl rfl).symm k)) = x0 (ix2 (n0 := 5000) (j 0) k)
    rw [shapeCast_self]
    refine congrArg x0 (funext fun a => Fin.ext ?_)
    match a with
    | ⟨0, _⟩ => exact lhsA_0 _ _
    | ⟨1, _⟩ => exact (lhsA_1 _ _).trans hk
  · -- the transposed weight block at (feature k, column j 1) is the weight block at (j 1, k)
    show transpose S128x128 [1, 0] x1 transposes_S128x128_p1_0_S128x128 (dot_S5000x128_S128x128_S5000x128_1_0_0_1_n_n.rhsIdx j ((ValueIdx.contrEquiv1 dot_S5000x128_S128x128_S5000x128_1_0_0_1_n_n 128 rfl rfl).symm k)) = x1 (ix2 (n0 := 128) (j 1) k)
    exact transpose_apply [1, 0] x1 transposes_S128x128_p1_0_S128x128 _ (ix2 (n0 := 128) (j 1) k) (fun b => match b with
      | ⟨0, _⟩ => ((rhsA_0 _ _).trans hk).symm
      | ⟨1, _⟩ => (rhsA_1 _ _).symm)

/-! ## Layer B: the body's matrix product read at an index -/

/-- The left operand's row is the output's row. -/
theorem lhsB_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the contracted feature. -/
theorem lhsB_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the contracted feature. -/
theorem rhsB_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column is the output's column. -/
theorem rhsB_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The second layer's body stores the dense layer of its feature block and the whole second weight matrix. -/
theorem payB_eq (x0 : Vec Ideal S5000x128 .f32) (x1 : Vec Ideal S64x128 .f32) :
    k1_pay1 (F := Ideal) x0 x1 = denseTanh 5000 64 x0 x1 := by
  funext j
  unfold k1_pay1
  rw [denseTanh_apply]
  refine congrArg Ideal.tanh ?_
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  refine congrArg₂ (fun a b : EReal => a * b) ?_ ?_
  · -- the cast to bf16 and the cast to the block's own shape change nothing: row (j 0), feature k of the block
    show shapeCast S5000x128 x0 shapeCasts_S5000x128_S5000x128 (dot_S5000x128_S128x64_S5000x64_1_0_0_1_n_n.lhsIdx j ((ValueIdx.contrEquiv1 dot_S5000x128_S128x64_S5000x64_1_0_0_1_n_n 128 rfl rfl).symm k)) = x0 (ix2 (n0 := 5000) (j 0) k)
    rw [shapeCast_self]
    refine congrArg x0 (funext fun a => Fin.ext ?_)
    match a with
    | ⟨0, _⟩ => exact lhsB_0 _ _
    | ⟨1, _⟩ => exact (lhsB_1 _ _).trans hk
  · -- the transposed weight block at (feature k, column j 1) is the weight block at (j 1, k)
    show transpose S128x64 [1, 0] x1 transposes_S64x128_p1_0_S128x64 (dot_S5000x128_S128x64_S5000x64_1_0_0_1_n_n.rhsIdx j ((ValueIdx.contrEquiv1 dot_S5000x128_S128x64_S5000x64_1_0_0_1_n_n 128 rfl rfl).symm k)) = x1 (ix2 (n0 := 64) (j 1) k)
    exact transpose_apply [1, 0] x1 transposes_S64x128_p1_0_S128x64 _ (ix2 (n0 := 64) (j 1) k) (fun b => match b with
      | ⟨0, _⟩ => ((rhsB_0 _ _).trans hk).symm
      | ⟨1, _⟩ => (rhsB_1 _ _).symm)

end Cert.KernelIdeal.Dense

end
-- ==== Proof.Blocks.lean ====
/-
  From blocks to arrays, for each of the two pallas_calls, at whatever contents `V` the region is entered with.
  The grid has 20 points; point `t` loads rows 5000·t … 5000·t + 4999 of the aggregated features and the whole
  weight matrix, stores the dense layer of the two, and writes the stored block back to the same rows of the
  output. Since entry (r, j) of the dense layer depends only on row r of the features and row j of the weights,
  a block of the result is the result of the block; and the 20 row blocks tile the 100000 rows, so the output
  array ends as the dense layer of the whole feature array and the weight matrix.
-/
import proofs.«117425_j72361609003220_1_alg».proof.Proof.Gen.KernelIdeal.Frame
import proofs.«117425_j72361609003220_1_alg».proof.Proof.Payload
import Idealize.ShloMosaic.Lib.Pipeline.Value

set_option maxRecDepth 16384

noncomputable section

open scoped BigOperators

namespace Cert.KernelIdeal.Blocks

open Cert.KernelIdeal Cert.KernelIdeal.Gen Cert.KernelIdeal.Dense Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The bodies load and store whole staging buffers: every access starts at the origin. -/
theorem hz : (![0, 0] : Fin 2 → Nat) = fun _ => 0 := funext fun a => by fin_cases a <;> rfl

/-! ## Region 0: the first layer's pallas_call -/

/-- The printed index maps over the 20 grid points: the feature window and the output window sit at block row
    `t`, column block 0; the weight window is the whole matrix at every point. -/
theorem idxA : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- At point `t`, row `r` of the block: the dense layer of the two loaded blocks is the dense layer of the whole
    arrays at row `5000·t + r` — the feature block's row r IS that row of the array, and the weight block is the
    whole weight matrix. -/
theorem pointA (c : Dev nD) (t : Fin cfg0.N) (j : S5000x128.Idx) :
    denseTanh 5000 128 (iblk0 V c 0 t) (iblk0 V c 1 t) j
      = denseTanh 100000 128 (V c main_v12) (V c main_arg1) (((cfg0.win 2).blk t).view.emb j) := by
  obtain ⟨e0, e1, e2, e3, e4, e5⟩ := idxA t
  show Ideal.tanh _ = Ideal.tanh _
  refine congrArg Ideal.tanh (Finset.sum_congr rfl fun k _ => ?_)
  refine congrArg₂ (fun a b : EReal => a * b) ?_ ?_
  · show V c main_v12 (((cfg0.win 0).blk t).view.emb (ix2 (n0 := 5000) (j 0) k))
      = V c main_v12 (ix2 (n0 := 100000) ((((cfg0.win 2).blk t).view.emb j) 0) k)
    refine congrArg (V c main_v12) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c main_arg1 (((cfg0.win 1).blk t).view.emb (ix2 (n0 := 128) (j 1) k))
      = V c main_arg1 (ix2 (n0 := 128) ((((cfg0.win 2).blk t).view.emb j) 1) k)
    refine congrArg (V c main_arg1) (funext fun a => Fin.ext ?_)
    match a with
    | ⟨0, _⟩ =>
      show win0_1.index t (0 : Fin 2) * 128 + 1 * (j 1).val = win0_2.index t (1 : Fin 2) * 128 + 1 * (j 1).val
      omega
    | ⟨1, _⟩ =>
      show win0_1.index t (1 : Fin 2) * 128 + 1 * k.val = k.val
      omega

/-- What point `t` writes back is block `t` of the dense layer of the whole arrays. -/
theorem flushedA_eq (c : Dev nD) (t : Fin cfg0.N) :
    (dat0 V c).flushed 2 t
      = ((cfg0.win 2).blk t).view.read (Elt Ideal) (denseTanh 100000 128 (V c main_v12) (V c main_arg1)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [payA_eq]
  funext j
  exact pointA V c t j

/-- An index of the output array is in point `t`'s block iff each coordinate is in the block's range. -/
theorem mem_blkA (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v13).slice (win0_2.rect t)).set ↔ _
  rw [View.set_slice_whole, Rect.mem_set_unit]
  exact Iff.rfl

/-- The 20 blocks of 5000 rows tile the 100000 rows: row `r` is in the block of point `r / 5000`. -/
theorem coverA (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 5000 < cfg0.N := by show (i 0).val / 5000 < grid0.N; rw [N_0]; omega
  obtain ⟨e0, e1, e2, e3, e4, e5⟩ := idxA ⟨(i 0).val / 5000, hN⟩
  refine ⟨⟨(i 0).val / 5000, hN⟩, flush0_2 _, ?_⟩
  rw [mem_blkA]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hN⟩ (1 : Fin 2) * 128 ≤ (i 1).val ∧ (i 1).val < win0_2.index ⟨(i 0).val / 5000, hN⟩ (1 : Fin 2) * 128 + 128
    rw [e5]
    omega

/-- The output array after the region: the dense layer of the array the region found in its feature window and
    the weight matrix it found in its weight window. -/
theorem finalA (c : Dev nD) :
    (dat0 V c).arrAt 2 cfg0.N = denseTanh 100000 128 (V c main_v12) (V c main_arg1) :=
  (dat0 V c).arrAt_eq_of_cover 2 _ (fun t _ => flushedA_eq V c t) coverA

/-! ## Region 1: the second layer's pallas_call -/

/-- The printed index maps over the 20 grid points: the feature window and the output window sit at block row
    `t`, column block 0; the weight window is the whole matrix at every point. -/
theorem idxB : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- At point `t`, row `r` of the block: the dense layer of the two loaded blocks is the dense layer of the whole
    arrays at row `5000·t + r` — the feature block's row r IS that row of the array, and the weight block is the
    whole weight matrix. -/
theorem pointB (c : Dev nD) (t : Fin cfg1.N) (j : S5000x64.Idx) :
    denseTanh 5000 64 (iblk1 V c 0 t) (iblk1 V c 1 t) j
      = denseTanh 100000 64 (V c main_v26) (V c main_arg2) (((cfg1.win 2).blk t).view.emb j) := by
  obtain ⟨e0, e1, e2, e3, e4, e5⟩ := idxB t
  show Ideal.tanh _ = Ideal.tanh _
  refine congrArg Ideal.tanh (Finset.sum_congr rfl fun k _ => ?_)
  refine congrArg₂ (fun a b : EReal => a * b) ?_ ?_
  · show V c main_v26 (((cfg1.win 0).blk t).view.emb (ix2 (n0 := 5000) (j 0) k))
      = V c main_v26 (ix2 (n0 := 100000) ((((cfg1.win 2).blk t).view.emb j) 0) k)
    refine congrArg (V c main_v26) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * k.val = k.val
      omega
  · show V c main_arg2 (((cfg1.win 1).blk t).view.emb (ix2 (n0 := 64) (j 1) k))
      = V c main_arg2 (ix2 (n0 := 64) ((((cfg1.win 2).blk t).view.emb j) 1) k)
    refine congrArg (V c main_arg2) (funext fun a => Fin.ext ?_)
    match a with
    | ⟨0, _⟩ =>
      show win1_1.index t (0 : Fin 2) * 64 + 1 * (j 1).val = win1_2.index t (1 : Fin 2) * 64 + 1 * (j 1).val
      omega
    | ⟨1, _⟩ =>
      show win1_1.index t (1 : Fin 2) * 128 + 1 * k.val = k.val
      omega

/-- What point `t` writes back is block `t` of the dense layer of the whole arrays. -/
theorem flushedB_eq (c : Dev nD) (t : Fin cfg1.N) :
    (dat1 V c).flushed 2 t
      = ((cfg1.win 2).blk t).view.read (Elt Ideal) (denseTanh 100000 64 (V c main_v26) (V c main_arg2)) := by
  show (cfg1.win 2).cut (grid1.coords t) ((dat1 V c).after 2 t) = _
  rw [after1_2]
  unfold out1_2
  rw [View.canon_unit_zero hz]
  simp only [View.ld_unit_zero (S := S5000x128) hz, View.ld_unit_zero (S := S64x128) hz]
  rw [payB_eq]
  funext j
  exact pointB V c t j

/-- An index of the output array is in point `t`'s block iff each coordinate is in the block's range. -/
theorem mem_blkB (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v27).slice (win1_2.rect t)).set ↔ _
  rw [View.set_slice_whole, Rect.mem_set_unit]
  exact Iff.rfl

/-- The 20 blocks of 5000 rows tile the 100000 rows: row `r` is in the block of point `r / 5000`. -/
theorem coverB (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 5000 < cfg1.N := by show (i 0).val / 5000 < grid1.N; rw [N_1]; omega
  obtain ⟨e0, e1, e2, e3, e4, e5⟩ := idxB ⟨(i 0).val / 5000, hN⟩
  refine ⟨⟨(i 0).val / 5000, hN⟩, flush1_2 _, ?_⟩
  rw [mem_blkB]
  intro a
  match a with
  | ⟨0, _⟩ =>
    show win1_2.index ⟨(i 0).val / 5000, hN⟩ (0 : Fin 2) * 5000 ≤ (i 0).val ∧ (i 0).val < win1_2.index ⟨(i 0).val / 5000, hN⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, hN⟩ (1 : Fin 2) * 64 ≤ (i 1).val ∧ (i 1).val < win1_2.index ⟨(i 0).val / 5000, hN⟩ (1 : Fin 2) * 64 + 64
    rw [e5]
    omega

/-- The output array after the region: the dense layer of the array the region found in its feature window and
    the weight matrix it found in its weight window. -/
theorem finalB (c : Dev nD) :
    (dat1 V c).arrAt 2 cfg1.N = denseTanh 100000 64 (V c main_v26) (V c main_arg2) :=
  (dat1 V c).arrAt_eq_of_cover 2 _ (fun t _ => flushedB_eq V c t) coverB

end Cert.KernelIdeal.Blocks

end
-- ==== Proof.KernelValue.lean ====
/-
  What the idealized kernel's result buffer holds at the end, as a function of the launch memory. Reading the
  fold through @main backwards: the second pallas_call leaves the dense layer of the array in its feature window
  and the second weight matrix; that array is the sparse aggregation (the second host stretch) of the first
  pallas_call's output with the edge values and edge endpoints; the first pallas_call's output is the dense layer
  of the array in ITS feature window and the first weight matrix; and that array is the sparse aggregation (the
  first host stretch) of the node features. No stretch writes an argument, so the weights and the edge arrays met
  along the way are the launch memory's. The sparse aggregation is named by the reference's stage for it: the two
  programs apply the same host operations there, and they are compared as they stand, never opened.
-/
import proofs.«117425_j72361609003220_1_alg».proof.Proof.RunFinal
import proofs.«117425_j72361609003220_1_alg».proof.Proof.Blocks
import proofs.«117425_j72361609003220_1_alg».proof.Proof.Gen.ReferenceIdeal.Read
import Idealize.ShloMosaic.Lib.StableHlo.Run

set_option maxRecDepth 16384

noncomputable section

namespace Cert.KernelIdeal.Whole

open Cert.KernelIdeal Cert.KernelIdeal.Gen Cert.KernelIdeal.Blocks Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first host stretch -/

/-- The first pallas_call finds the aggregated node features in its feature window. -/
theorem v12_eq (c : Dev nD) :
    V1 m ρ c main_v12 = Cert.ReferenceIdeal.Read.val_main_v12 (F := Ideal) (m ((c : Thread nD τ).loc main_arg0)) (m ((c : Thread nD τ).loc main_arg3)) (m ((c : Thread nD τ).loc main_arg4)) (m ((c : Thread nD τ).loc main_arg5)) := by
  show StableHlo.after hostOps0 (W0 m ρ c) (Proc.devRef .tc main_v12) = _
  dsimp only [hostOps0]
  after_results_simp <;> rfl

/-- and the first weight matrix, as launched, in its weight window. -/
theorem arg1_at1 (c : Dev nD) : V1 m ρ c main_arg1 = m ((c : Thread nD τ).loc main_arg1) := by
  show StableHlo.after hostOps0 (W0 m ρ c) (Proc.devRef .tc main_arg1) = _
  dsimp only [hostOps0]
  after_results_simp <;> rfl

/-! ## The first pallas_call -/

/-- It leaves the dense layer of the two in its output array. -/
theorem v13_eq (c : Dev nD) :
    W2 m ρ c (Proc.devRef .tc main_v13) = denseTanh 100000 128 (V1 m ρ c main_v12) (V1 m ρ c main_arg1) :=
  (W2_arr m ρ c 2).trans (finalA (V1 m ρ) c)

/-- No host operation of the first aggregation and no window of the first pallas_call writes `main_arg2`. -/
theorem main_arg2_at2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    dsimp only [hostOps0]
    after_results_simp <;> rfl)

/-- No host operation of the first aggregation and no window of the first pallas_call writes `main_arg3`. -/
theorem main_arg3_at2 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    dsimp only [hostOps0]
    after_results_simp <;> rfl)

/-- No host operation of the first aggregation and no window of the first pallas_call writes `main_arg4`. -/
theorem main_arg4_at2 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    dsimp only [hostOps0]
    after_results_simp <;> rfl)

/-- No host operation of the first aggregation and no window of the first pallas_call writes `main_arg5`. -/
theorem main_arg5_at2 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    dsimp only [hostOps0]
    after_results_simp <;> rfl)

/-! ## The second host stretch -/

/-- The second pallas_call finds, in its feature window, the aggregation of the first one's output. -/
theorem v26_eq (c : Dev nD) :
    V3 m ρ c main_v26 = Cert.ReferenceIdeal.Read.val_main_v12 (F := Ideal) (W2 m ρ c (Proc.devRef .tc main_v13)) (W2 m ρ c (Proc.devRef .tc main_arg3))
      (W2 m ρ c (Proc.devRef .tc main_arg4)) (W2 m ρ c (Proc.devRef .tc main_arg5)) := by
  show StableHlo.after hostOps1 (W2 m ρ c) (Proc.devRef .tc main_v26) = _
  dsimp only [hostOps1]
  after_results_simp <;> rfl

/-- and the second weight matrix, as launched, in its weight window. -/
theorem arg2_at3 (c : Dev nD) : V3 m ρ c main_arg2 = m ((c : Thread nD τ).loc main_arg2) := by
  show StableHlo.after hostOps1 (W2 m ρ c) (Proc.devRef .tc main_arg2) = _
  dsimp only [hostOps1]
  refine Eq.trans ?_ (main_arg2_at2 m ρ c)
  after_results_simp <;> rfl

/-! ## The second pallas_call, and the whole -/

/-- It leaves the dense layer of the two in the result buffer. -/
theorem v27_eq (c : Dev nD) :
    W4 m ρ c (Proc.devRef .tc main_v27) = denseTanh 100000 64 (V3 m ρ c main_v26) (V3 m ρ c main_arg2) :=
  (W4_arr m ρ c 2).trans (finalB (V3 m ρ) c)

/-- The result buffer at the end: two dense layers around two sparse aggregations of the launch memory. -/
theorem result_eq (c : Dev nD) :
    W4 m ρ c (Proc.devRef .tc main_v27)
      = denseTanh 100000 64
          (Cert.ReferenceIdeal.Read.val_main_v12 (F := Ideal)
            (denseTanh 100000 128
              (Cert.ReferenceIdeal.Read.val_main_v12 (F := Ideal) (m ((c : Thread nD τ).loc main_arg0)) (m ((c : Thread nD τ).loc main_arg3)) (m ((c : Thread nD τ).loc main_arg4)) (m ((c : Thread nD τ).loc main_arg5)))
              (m ((c : Thread nD τ).loc main_arg1)))
            (m ((c : Thread nD τ).loc main_arg3)) (m ((c : Thread nD τ).loc main_arg4)) (m ((c : Thread nD τ).loc main_arg5)))
          (m ((c : Thread nD τ).loc main_arg2)) := by
  rw [v27_eq, v26_eq, arg2_at3, v13_eq, v12_eq, arg1_at1, main_arg3_at2, main_arg4_at2, main_arg5_at2]

/-- Every weakly fair execution of the idealized kernel terminates with the result buffer at that function of the
    launch memory and the six arguments unchanged. -/
theorem run : θ_run defs (onTc (τ := τ) (main (F := Ideal))) ⟨m, fun _ => 0, ρ⟩ (fun r => ∀ c : Dev nD,
      r.2.mem ((c.tc : Thread nD τ).loc main_v27)
        = denseTanh 100000 64
          (Cert.ReferenceIdeal.Read.val_main_v12 (F := Ideal)
            (denseTanh 100000 128
              (Cert.ReferenceIdeal.Read.val_main_v12 (F := Ideal) (m ((c : Thread nD τ).loc main_arg0)) (m ((c : Thread nD τ).loc main_arg3)) (m ((c : Thread nD τ).loc main_arg4)) (m ((c : Thread nD τ).loc main_arg5)))
              (m ((c : Thread nD τ).loc main_arg1)))
            (m ((c : Thread nD τ).loc main_arg3)) (m ((c : Thread nD τ).loc main_arg4)) (m ((c : Thread nD τ).loc main_arg5)))
          (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_v27 (by decide))).trans (result_eq m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)
    (run_final m ρ)

end Cert.KernelIdeal.Whole

end
-- ==== Proof.RefDense.lean ====
/-
  The reference, stage by stage, in the words of Spec.lean. Its first layer applies the sparse aggregation to the
  node features, multiplies by the transposed first weight matrix and applies tanh; entry (r, j) of the product
  with a transposed matrix pairs row r with ROW j of the untransposed one, so the stage is the dense layer of the
  aggregated features and the weight matrix as given. The second layer does the same to the first layer's output
  with the second weight matrix, and its aggregation is the very same chain of host operations as the first,
  applied to that output.
-/
import proofs.«117425_j72361609003220_1_alg».proof.Proof.Gen.ReferenceIdeal.Read
import proofs.«117425_j72361609003220_1_alg».proof.Proof.Spec

noncomputable section

open scoped BigOperators

namespace Cert.ReferenceIdeal.RefValue

open Cert.ReferenceIdeal Cert.ReferenceIdeal.Gen Cert.ReferenceIdeal.Read Cert.GraphConv Idealize.ShloMosaic Idealize.ShloMosaic.ValueIdx

/-- The first layer's output is the dense layer of the aggregated node features and the first weight matrix. -/
theorem layer1_eq (x0 : (⟨S100000x128, .f32⟩ : BufTy).Contents (Elt Ideal)) (x1 : (⟨S128x128, .f32⟩ : BufTy).Contents (Elt Ideal)) (x3 : (⟨S1600000, .f32⟩ : BufTy).Contents (Elt Ideal)) (x4 x5 : (⟨S1600000, .i32⟩ : BufTy).Contents (Elt Ideal)) :
    val_main_v15 (F := Ideal) x0 x1 x3 x4 x5 = denseTanh 100000 128 (val_main_v12 (F := Ideal) x0 x3 x4 x5) x1 := by
  funext i
  rw [val_main_v15_apply, val_main_v14_apply, denseTanh_apply]
  generalize val_main_v12 (F := Ideal) x0 x3 x4 x5 = s
  refine congrArg Ideal.tanh (Finset.sum_congr rfl fun k _ => ?_)
  rw [val_main_v13_apply]
  refine congrArg₂ (fun a b : EReal => a * b) (congrArg s ?_) (congrArg x1 ?_)
  · funext a; match a with | ⟨0, _⟩ => rfl | ⟨1, _⟩ => rfl
  · funext a; match a with | ⟨0, _⟩ => rfl | ⟨1, _⟩ => rfl

/-- The second aggregation is the first one's host operations applied to the first layer's output. -/
theorem agg2_eq (x0 : (⟨S100000x128, .f32⟩ : BufTy).Contents (Elt Ideal)) (x1 : (⟨S128x128, .f32⟩ : BufTy).Contents (Elt Ideal)) (x3 : (⟨S1600000, .f32⟩ : BufTy).Contents (Elt Ideal)) (x4 x5 : (⟨S1600000, .i32⟩ : BufTy).Contents (Elt Ideal)) :
    val_main_v28 (F := Ideal) x0 x1 x3 x4 x5 = val_main_v12 (F := Ideal) (val_main_v15 (F := Ideal) x0 x1 x3 x4 x5) x3 x4 x5 := rfl

/-- The result is the dense layer of the second aggregation and the second weight matrix. -/
theorem layer2_eq (x0 : (⟨S100000x128, .f32⟩ : BufTy).Contents (Elt Ideal)) (x1 : (⟨S128x128, .f32⟩ : BufTy).Contents (Elt Ideal)) (x2 : (⟨S64x128, .f32⟩ : BufTy).Contents (Elt Ideal)) (x3 : (⟨S1600000, .f32⟩ : BufTy).Contents (Elt Ideal)) (x4 x5 : (⟨S1600000, .i32⟩ : BufTy).Contents (Elt Ideal)) :
    val_main_v31 (F := Ideal) x0 x1 x2 x3 x4 x5 = denseTanh 100000 64 (val_main_v28 (F := Ideal) x0 x1 x3 x4 x5) x2 := by
  funext i
  rw [val_main_v31_apply, val_main_v30_apply, denseTanh_apply]
  generalize val_main_v28 (F := Ideal) x0 x1 x3 x4 x5 = s
  refine congrArg Ideal.tanh (Finset.sum_congr rfl fun k _ => ?_)
  rw [val_main_v29_apply]
  refine congrArg₂ (fun a b : EReal => a * b) (congrArg s ?_) (congrArg x2 ?_)
  · funext a; match a with | ⟨0, _⟩ => rfl | ⟨1, _⟩ => rfl
  · funext a; match a with | ⟨0, _⟩ => rfl | ⟨1, _⟩ => rfl

/-- The reference's result as two dense layers around the two aggregations. -/
theorem result_eq (x0 : (⟨S100000x128, .f32⟩ : BufTy).Contents (Elt Ideal)) (x1 : (⟨S128x128, .f32⟩ : BufTy).Contents (Elt Ideal)) (x2 : (⟨S64x128, .f32⟩ : BufTy).Contents (Elt Ideal)) (x3 : (⟨S1600000, .f32⟩ : BufTy).Contents (Elt Ideal)) (x4 x5 : (⟨S1600000, .i32⟩ : BufTy).Contents (Elt Ideal)) :
    val_main_v31 (F := Ideal) x0 x1 x2 x3 x4 x5
      = denseTanh 100000 64 (val_main_v12 (F := Ideal) (denseTanh 100000 128 (val_main_v12 (F := Ideal) x0 x3 x4 x5) x1) x3 x4 x5) x2 := by
  rw [layer2_eq, agg2_eq, layer1_eq]

end Cert.ReferenceIdeal.RefValue

end
-- ==== Proof.lean ====
/-
  A two-layer graph convolution, out = tanh (A · tanh (A · X · W1ᵀ) · W2ᵀ), where A is the sparse N × N matrix
  given by 1.6 million edges (value, row, column) and N = 100000 nodes carry 128 features. The kernel computes each
  sparse product A · Y on the host (gather the source rows, scale by the edge values, scatter-add into the
  destination rows) and each dense step s ↦ tanh (s · Wᵀ) in a pallas_call over 20 blocks of 5000 rows, multiplying
  in bf16 with an f32 accumulator; the reference computes the same sparse products with the same host operations
  and the dense steps as one matrix product each.

  On the extended reals the two agree entry by entry, for every input:
    * the casts to bf16 are the identity, and a matrix product into a zero accumulator is the plain sum
      ∑ₖ s[r, k] · W[j, k] over the 128 features, the same sum, in the same order, as the reference's product with
      the transposed weight matrix;
    * entry (r, j) of a dense step depends on row r of its input only, so computing it block of rows by block of
      rows, the 20 blocks tiling the 100000 rows, gives the whole array (Proof/Blocks.lean);
    * the sparse products are the same chain of host operations applied to equal arrays, and are compared as they
      stand.
  No law of arithmetic that fails at infinities is used (nothing is distributed, cancelled or moved across a sum),
  so the precondition that the inputs are finite is never opened.

  The kernel's run and what its result buffer holds at the end are Proof/RunFinal.lean and Proof/KernelValue.lean;
  the reference's stages in the same words are Proof/RefDense.lean. The word-level kernel and the idealized one are
  the same text (no operation was rewritten), so `preserves` asks nothing.
-/
import proofs.«117425_j72361609003220_1_alg».proof.Defs
import proofs.«117425_j72361609003220_1_alg».proof.Proof.Gen.Kernel
import proofs.«117425_j72361609003220_1_alg».proof.Proof.Gen.Kernel.Skeleton
import proofs.«117425_j72361609003220_1_alg».proof.Proof.Gen.Kernel.Launch
import proofs.«117425_j72361609003220_1_alg».proof.Proof.Gen.Kernel.Points
import proofs.«117425_j72361609003220_1_alg».proof.Proof.Gen.Kernel.Frame
import proofs.«117425_j72361609003220_1_alg».proof.Proof.Gen.KernelIdeal
import proofs.«117425_j72361609003220_1_alg».proof.Proof.Gen.KernelIdeal.Skeleton
import proofs.«117425_j72361609003220_1_alg».proof.Proof.Gen.KernelIdeal.Launch
import proofs.«117425_j72361609003220_1_alg».proof.Proof.Gen.KernelIdeal.Points
import proofs.«117425_j72361609003220_1_alg».proof.Proof.Gen.KernelIdeal.Frame
import proofs.«117425_j72361609003220_1_alg».proof.Proof.Gen.ReferenceIdeal
import proofs.«117425_j72361609003220_1_alg».proof.Proof.Gen.ReferenceIdeal.Run
import proofs.«117425_j72361609003220_1_alg».proof.Proof.Gen.ReferenceIdeal.Read
import proofs.«117425_j72361609003220_1_alg».proof.Proof.Gen.Pre_finite_inputs
import proofs.«117425_j72361609003220_1_alg».proof.Proof.KernelValue
import proofs.«117425_j72361609003220_1_alg».proof.Proof.RefDense
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the result at one function of them: two
    dense layers around two sparse aggregations. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
